-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x2048 : Shape := ⟨3, ![8, 2048, 2048]⟩
abbrev S2048x2048 : Shape := ⟨2, ![2048, 2048]⟩
abbrev S2048 : Shape := ⟨1, ![2048]⟩
abbrev S2048x16 : Shape := ⟨2, ![2048, 16]⟩
abbrev S16x2048 : Shape := ⟨2, ![16, 2048]⟩
abbrev S_ : Shape := ⟨0, ![]⟩

class Facts : Prop where
  bcast_S_S8x2048x2048 : S_.BroadcastsInDim S8x2048x2048 (![] : Fin 0 → Fin S8x2048x2048.rank)
  reducesTo_S8x2048x2048_S_d0_1_2 : S8x2048x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S2048x16 : S_.BroadcastsInDim S2048x16 (![] : Fin 0 → Fin S2048x16.rank)
  reducesTo_S2048x16_S_d0_1 : S2048x16.ReducesTo [0, 1] S_
  bcast_S_S16x2048 : S_.BroadcastsInDim S16x2048 (![] : Fin 0 → Fin S16x2048.rank)
  reducesTo_S16x2048_S_d0_1 : S16x2048.ReducesTo [0, 1] S_

variable [Facts]

def fn_part1 {F : FTy → Type} [FloatOps F] (main_arg4 : FVec F S16x2048 .f32) (main_v13 : IVec S_ 1) (main_v16 : IVec S2048x16 1) : IVec S_ 1 :=
  let main_c_5 : IVec S_ 1 := constantI S_ 1 1#1
  let main_v17 : IVec S_ 1 := (fun x v => Host.reduce IntOp.andi x v reducesTo_S2048x16_S_d0_1 h_S_) main_v16 main_c_5
  let main_v18 : IVec S_ 1 := andi main_v13 main_v17
  let main_v19 : FVec F S16x2048 .f32 := Host.absf main_arg4
  let main_cst_6 : FVec F S_ .f32 := constant S_ .f32 0x7F800000#32
  let main_v20 : FVec F S16x2048 .f32 := broadcastInDim S16x2048 ![] bcast_S_S16x2048 main_cst_6
  let main_v21 : IVec S16x2048 1 := cmpf .olt main_v19 main_v20
  let main_c_7 : IVec S_ 1 := constantI S_ 1 1#1
  let main_v22 : IVec S_ 1 := (fun x v => Host.reduce IntOp.andi x v reducesTo_S16x2048_S_d0_1 h_S_) main_v21 main_c_7
  let main_v23 : IVec S_ 1 := andi main_v18 main_v22
  main_v23

def fn {F : FTy → Type} [FloatOps F] (main_arg0 : FVec F S8x2048x2048 .f32) (main_arg1 : FVec F S2048x2048 .f32) (main_arg2 : FVec F S2048 .f32) (main_arg3 : FVec F S2048x16 .f32) (main_arg4 : FVec F S16x2048 .f32) : IVec S_ 1 :=
  let main_v0 : FVec F S8x2048x2048 .f32 := Host.absf main_arg0
  let main_cst : FVec F S_ .f32 := constant S_ .f32 0x7F800000#32
  let main_v1 : FVec F S8x2048x2048 .f32 := broadcastInDim S8x2048x2048 ![] bcast_S_S8x2048x2048 main_cst
  let main_v2 : IVec S8x2048x2048 1 := cmpf .olt main_v0 main_v1
  let main_c : IVec S_ 1 := constantI S_ 1 1#1
  let main_v3 : IVec S_ 1 := (fun x v => Host.reduce IntOp.andi x v reducesTo_S8x2048x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x16 .f32 := Host.absf main_arg3
  let main_cst_4 : FVec F S_ .f32 := constant S_ .f32 0x7F800000#32
  let main_v15 : FVec F S2048x16 .f32 := broadcastInDim S2048x16 ![] bcast_S_S2048x16 main_cst_4
  let main_v16 : IVec S2048x16 1 := cmpf .olt main_v14 main_v15
  fn_part1 (F := F) main_arg4 main_v13 main_v16
-- ==== Kernel.lean ====
abbrev S8x2048x2048 : Shape := ⟨3, ![8, 2048, 2048]⟩
abbrev S2048x2048 : Shape := ⟨2, ![2048, 2048]⟩
abbrev S2048 : Shape := ⟨1, ![2048]⟩
abbrev S2048x16 : Shape := ⟨2, ![2048, 16]⟩
abbrev S16x2048 : Shape := ⟨2, ![16, 2048]⟩
abbrev S1x2048 : Shape := ⟨2, ![1, 2048]⟩
abbrev S1x1024x2048 : Shape := ⟨3, ![1, 1024, 2048]⟩
abbrev S1024x2048 : Shape := ⟨2, ![1024, 2048]⟩
abbrev S1024x16 : Shape := ⟨2, ![1024, 16]⟩

abbrev nBuf : Space → Nat
  | .hbm => 10
  | .vmem => 8
  | .smem => 0
  | _ => 0

abbrev bufTy : (tb : Table) → Fin (tcTables nBuf tb) → BufTy
  | .hbm, ⟨0, _⟩ => ⟨S8x2048x2048, .f32⟩
  | .hbm, ⟨1, _⟩ => ⟨S2048x2048, .f32⟩
  | .hbm, ⟨2, _⟩ => ⟨S2048, .f32⟩
  | .hbm, ⟨3, _⟩ => ⟨S2048x16, .f32⟩
  | .hbm, ⟨4, _⟩ => ⟨S16x2048, .f32⟩
  | .hbm, ⟨5, _⟩ => ⟨S2048x2048, .bf16⟩
  | .hbm, ⟨6, _⟩ => ⟨S16x2048, .bf16⟩
  | .hbm, ⟨7, _⟩ => ⟨S2048x16, .bf16⟩
  | .hbm, ⟨8, _⟩ => ⟨S1x2048, .f32⟩
  | .hbm, ⟨9, _⟩ => ⟨S8x2048x2048, .f32⟩
  | .local _ .vmem, ⟨0, _⟩ => ⟨S1x1024x2048, .f32⟩
  | .local _ .vmem, ⟨1, _⟩ => ⟨S1x1024x2048, .f32⟩
  | .local _ .vmem, ⟨2, _⟩ => ⟨S2048x2048, .bf16⟩
  | .local _ .vmem, ⟨3, _⟩ => ⟨S16x2048, .bf16⟩
  | .local _ .vmem, ⟨4, _⟩ => ⟨S2048x16, .bf16⟩
  | .local _ .vmem, ⟨5, _⟩ => ⟨S1x2048, .f32⟩
  | .local _ .vmem, ⟨6, _⟩ => ⟨S1x1024x2048, .f32⟩
  | .local _ .vmem, ⟨7, _⟩ => ⟨S1x1024x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S16x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bitsLt_bf16_f32 : FTy.bits .bf16 < FTy.bits .f32
  shapeCasts_S2048_S1x2048 : S2048.ShapeCasts S1x2048
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S16x2048_S16x2048_0_0 : ∀ a, (![0, 0] : Fin 2 → Nat) a + S16x2048.size a ≤ S16x2048.size a
  h_S16x2048 : 0 < S16x2048.numel
  shapeCasts_S16x2048_S16x2048 : S16x2048.ShapeCasts S16x2048
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  shapeCasts_S1024x2048_S1x1024x2048 : S1024x2048.ShapeCasts S1x1024x2048
  dot_S1024x2048_S2048x2048_S1024x2048_1_1_0_0_n_n_wf : DotDims.WF S1024x2048 S2048x2048 S1024x2048 [1] [1] [0] [0] [] []
  dot_S1024x2048_S16x2048_S1024x16_1_1_0_0_n_n_wf : DotDims.WF S1024x2048 S16x2048 S1024x16 [1] [1] [0] [0] [] []
  dot_S1024x16_S2048x16_S1024x2048_1_1_0_0_n_n_wf : DotDims.WF S1024x16 S2048x16 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S8x2048x2048.size a
  hwx0_0 : ∀ i : grid0.Coords, EltTy.bits .f32 = 32 ∨ (Rect.block (s := S8x2048x2048) S1x1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x2048.size a ≤ S16x2048.size a
  hwx0_2 : ∀ i : grid0.Coords, EltTy.bits .bf16 = 32 ∨ (Rect.block (s := S16x2048) S16x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x16.size a ≤ S2048x16.size a
  hwx0_3 : ∀ i : grid0.Coords, EltTy.bits .bf16 = 32 ∨ (Rect.block (s := S2048x16) S2048x16.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x2048.size a ≤ S8x2048x2048.size a
  hwx0_5 : ∀ i : grid0.Coords, EltTy.bits .f32 = 32 ∨ (Rect.block (s := S8x2048x2048) S1x1024x2048.size (cc0_transform_5 i) (hinb0_5 i)).WholeWords (EltTy.packing .f32)

variable [Facts₀]

def dot_S1024x2048_S2048x2048_S1024x2048_1_1_0_0_n_n : DotDims S1024x2048 S2048x2048 S1024x2048 where
  lhsContracting := [1]
  rhsContracting := [1]
  lhsNonContracting := [0]
  rhsNonContracting := [0]
  lhsBatch := []
  rhsBatch := []
  wf := dot_S1024x2048_S2048x2048_S1024x2048_1_1_0_0_n_n_wf
def dot_S1024x2048_S16x2048_S1024x16_1_1_0_0_n_n : DotDims S1024x2048 S16x2048 S1024x16 where
  lhsContracting := [1]
  rhsContracting := [1]
  lhsNonContracting := [0]
  rhsNonContracting := [0]
  lhsBatch := []
  rhsBatch := []
  wf := dot_S1024x2048_S16x2048_S1024x16_1_1_0_0_n_n_wf
def dot_S1024x16_S2048x16_S1024x2048_1_1_0_0_n_n : DotDims S1024x16 S2048x16 S1024x2048 where
  lhsContracting := [1]
  rhsContracting := [1]
  lhsNonContracting := [0]
  rhsNonContracting := [0]
  lhsBatch := []
  rhsBatch := []
  wf := dot_S1024x16_S2048x16_S1024x2048_1_1_0_0_n_n_wf

abbrev win0_0 : Pipeline.Window sig grid0 :=
  Pipeline.Window.ofSpec (Memref.whole main_arg0) S1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S16x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2048x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x1024x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x2048x2048 : Shape := ⟨3, ![8, 2048, 2048]⟩
abbrev S2048x2048 : Shape := ⟨2, ![2048, 2048]⟩
abbrev S2048 : Shape := ⟨1, ![2048]⟩
abbrev S2048x16 : Shape := ⟨2, ![2048, 16]⟩
abbrev S16x2048 : Shape := ⟨2, ![16, 2048]⟩
abbrev S_ : Shape := ⟨0, ![]⟩
abbrev S1x1x2048 : Shape := ⟨3, ![1, 1, 2048]⟩

abbrev nBuf : Space → Nat
  | .hbm => 14
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048x2048, .f32⟩
  | .hbm, ⟨2, _⟩ => ⟨S2048, .f32⟩
  | .hbm, ⟨3, _⟩ => ⟨S2048x16, .f32⟩
  | .hbm, ⟨4, _⟩ => ⟨S16x2048, .f32⟩
  | .hbm, ⟨5, _⟩ => ⟨S2048x2048, .f32⟩
  | .hbm, ⟨6, _⟩ => ⟨S_, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S8x2048x2048, .f32⟩
  | .hbm, ⟨11, _⟩ => ⟨S1x1x2048, .f32⟩
  | .hbm, ⟨12, _⟩ => ⟨S8x2048x2048, .f32⟩
  | .hbm, ⟨13, _⟩ => ⟨S8x2048x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  bcast_S2048_S1x1x2048_2 : S2048.BroadcastsInDim S1x1x2048 (![2] : Fin 1 → Fin S1x1x2048.rank)
  bcast_S1x1x2048_S8x2048x2048_0_1_2 : S1x1x2048.BroadcastsInDim S8x2048x2048 (![0, 1, 2] : Fin 3 → Fin S8x2048x2048.rank)
  dot_S2048x16_S16x2048_S2048x2048_1_0_0_1_n_n_wf : DotDims.WF S2048x16 S16x2048 S2048x2048 [1] [0] [0] [1] [] []
  dot_S8x2048x2048_S2048x2048_S8x2048x2048_2_1_01_0_n_n_wf : DotDims.WF S8x2048x2048 S2048x2048 S8x2048x2048 [2] [1] [0, 1] [0] [] []

variable [Facts₀]

def dot_S2048x16_S16x2048_S2048x2048_1_0_0_1_n_n : DotDims S2048x16 S16x2048 S2048x2048 where
  lhsContracting := [1]
  rhsContracting := [0]
  lhsNonContracting := [0]
  rhsNonContracting := [1]
  lhsBatch := []
  rhsBatch := []
  wf := dot_S2048x16_S16x2048_S2048x2048_1_0_0_1_n_n_wf
def dot_S8x2048x2048_S2048x2048_S8x2048x2048_2_1_01_0_n_n : DotDims S8x2048x2048 S2048x2048 S8x2048x2048 where
  lhsContracting := [2]
  rhsContracting := [1]
  lhsNonContracting := [0, 1]
  rhsNonContracting := [0]
  lhsBatch := []
  rhsBatch := []
  wf := dot_S8x2048x2048_S2048x2048_S8x2048x2048_2_1_01_0_n_n_wf

class Facts : Prop extends Facts₀ where

variable [Facts]
-- ==== Proof.LibContract.lean ====
/-
  A contraction over ONE axis, read as a sum over that axis's coordinate.

  At the ideal values a matrix product, whatever its dimension numbers, is at each output index j the sum over the
  contraction index set of  l (lhsIdx j q) * r (rhsIdx j q).  When exactly one axis of each operand is contracted,
  of extent K, the contraction index is one coordinate k : Fin K, and the sum is over k of the operands at the two
  indices that q = k gives. `single_sum` states this for any dimension numbers; the operand indices at each k are
  supplied by the caller (they are read off the dimension numbers coordinate by coordinate).
  `matmul_zero_single` and `dotGeneral_single` are the same for a product into the zero accumulator and for the
  host's product.
-/
import Idealize.ShloMosaic.Lib.ValueIdx
import Idealize.ShloMosaic.PureOps.Ideal.Laws

noncomputable section

open scoped BigOperators

namespace Cert.Lib.Contract

open Idealize.ShloMosaic Idealize.ShloMosaic.ValueIdx

variable {sl sr so : Shape}

/-- The contraction sum over one contracted axis of extent K, re-indexed through the axis's coordinate. -/
theorem single_sum (d : DotDims sl sr so) (K : ℕ) (hr : d.contr.rank = 1) (hs : d.contr.size ⟨0, by omega⟩ = K)
    (l : sl.Idx → EReal) (r : sr.Idx → EReal) (j : so.Idx) (Li : Fin K → sl.Idx) (Ri : Fin K → sr.Idx)
    (hl : ∀ (k : Fin K) (q : d.contr.Idx), (q ⟨0, by omega⟩).val = k.val → d.lhsIdx j q = Li k)
    (hrr : ∀ (k : Fin K) (q : d.contr.Idx), (q ⟨0, by omega⟩).val = k.val → d.rhsIdx j q = Ri k) :
    ∑ q : d.contr.Idx, l (d.lhsIdx j q) * r (d.rhsIdx j q) = ∑ k : Fin K, l (Li k) * r (Ri k) := by
  rw [← Equiv.sum_comp (contrEquiv1 d K hr hs).symm]
  refine Finset.sum_congr rfl fun k _ => ?_
  have hk := contrEquiv1_symm_val d K hr hs k
  rw [hl k _ hk, hrr k _ hk]

/-- A kernel's matrix product into the zero accumulator, one axis contracted, read at an output index. -/
theorem matmul_zero_single {φ₁ φ₂ : FTy} (d : DotDims sl sr so) (prec : Option ContractPrecision) (K : ℕ)
    (hr : d.contr.rank = 1) (hs : d.contr.size ⟨0, by omega⟩ = K)
    (l : FVec Ideal sl φ₁) (r : FVec Ideal sr φ₂) (j : so.Idx) (Li : Fin K → sl.Idx) (Ri : Fin K → sr.Idx)
    (hl : ∀ (k : Fin K) (q : d.contr.Idx), (q ⟨0, by omega⟩).val = k.val → d.lhsIdx j q = Li k)
    (hrr : ∀ (k : Fin K) (q : d.contr.Idx), (q ⟨0, by omega⟩).val = k.val → d.rhsIdx j q = Ri k) :
    matmul d prec l r (constant so .f32 0x00000000#32) j = ∑ k : Fin K, l (Li k) * r (Ri k) :=
  (Ideal.matmul_constant_zero_apply d prec l r j).trans (single_sum d K hr hs l r j Li Ri hl hrr)

/-- The host's matrix product, one axis contracted, read at an output index. -/
theorem dotGeneral_single {φ₁ φ₂ : FTy} (d : DotDims sl sr so) (prec : Option ContractPrecision) (K : ℕ)
    (hr : d.contr.rank = 1) (hs : d.contr.size ⟨0, by omega⟩ = K)
    (l : FVec Ideal sl φ₁) (r : FVec Ideal sr φ₂) (j : so.Idx) (Li : Fin K → sl.Idx) (Ri : Fin K → sr.Idx)
    (hl : ∀ (k : Fin K) (q : d.contr.Idx), (q ⟨0, by omega⟩).val = k.val → d.lhsIdx j q = Li k)
    (hrr : ∀ (k : Fin K) (q : d.contr.Idx), (q ⟨0, by omega⟩).val = k.val → d.rhsIdx j q = Ri k) :
    Host.dotGeneral d prec l r j = ∑ k : Fin K, l (Li k) * r (Ri k) :=
  (Ideal.dotGeneral_apply d prec .single l r j).trans (single_sum d K hr hs l r j Li Ri hl hrr)

end Cert.Lib.Contract

end
-- ==== Proof.LoraSpec.lean ====
/-
  What both programs compute, as ONE function of the five argument arrays, entry by entry.

  x is a stack of 8 matrices of 2048 rows; W is the 2048×2048 weight, read by rows (row o is the weights of output
  feature o); A (16×2048) and Bm (2048×16) are the two thin factors of the low-rank update; b is the bias. Entry
  (p, s, o) of the result is
      Σ_k x(p,s,k)·W(o,k)  +  2 · Σ_r (Σ_k x(p,s,k)·A(r,k)) · Bm(o,r)  +  b(o):
  row s of matrix p against row o of W, plus twice that row pushed through A and then against row o of Bm, plus the
  bias of feature o. The factor 2 is kept as the binary word both programs print.
-/
import Idealize.ShloMosaic.PureOps.Ideal
import Idealize.ShloMosaic.Lib.ValueIdx

noncomputable section

open scoped BigOperators

namespace Cert.Lora

open Idealize.ShloMosaic Idealize.ShloMosaic.ValueIdx

/-- The scale of the low-rank term: the word of 2.0. -/
abbrev two : EReal := Ideal.ofBits .f32 0x40000000#32

/-- Entry (p, s, o) of the result. -/
def entry (x : (⟨3, ![8, 2048, 2048]⟩ : Shape).Idx → EReal) (W : (⟨2, ![2048, 2048]⟩ : Shape).Idx → EReal)
    (b : (⟨1, ![2048]⟩ : Shape).Idx → EReal) (Bm : (⟨2, ![2048, 16]⟩ : Shape).Idx → EReal)
    (A : (⟨2, ![16, 2048]⟩ : Shape).Idx → EReal) (p : Fin 8) (s : Fin 2048) (o : Fin 2048) : EReal :=
  ((∑ k : Fin 2048, x (ix3 p s k) * W (ix2 o k))
    + two * ∑ r : Fin 16, (∑ k : Fin 2048, x (ix3 p s k) * A (ix2 r k)) * Bm (ix2 o r))
  + b (ix1 o)

/-- The whole result array. -/
def lora (x : (⟨3, ![8, 2048, 2048]⟩ : Shape).Idx → EReal) (W : (⟨2, ![2048, 2048]⟩ : Shape).Idx → EReal)
    (b : (⟨1, ![2048]⟩ : Shape).Idx → EReal) (Bm : (⟨2, ![2048, 16]⟩ : Shape).Idx → EReal)
    (A : (⟨2, ![16, 2048]⟩ : Shape).Idx → EReal) : (⟨3, ![8, 2048, 2048]⟩ : Shape).Idx → EReal :=
  fun i => entry x W b Bm A (i 0) (i 1) (i 2)

end Cert.Lora

end
-- ==== Proof.KernelRow.lean ====
/-
  The kernel body's arithmetic, read at one entry of its output block.

  The body holds a block of 1024 rows of one input matrix (as a [1, 1024, 2048] array), the whole weight W, the two
  thin factors A and Bm, and the bias as a [1, 2048] row. Its three matrix products all contract the SECOND axis of
  both operands (each right operand is used transposed): rows against rows. At the ideal values the changes of float
  format are the identity, so entry (s, o) of the stored block is
      Σ_k x(s,k)·W(o,k)  +  2 · Σ_r (Σ_k x(s,k)·A(r,k)) · Bm(o,r)  +  bias(o).
-/
import proofs.«138790_j55319178772936_2_alg».proof.Proof.Gen.KernelIdeal.Skeleton
import proofs.«138790_j55319178772936_2_alg».proof.Proof.LibContract
import proofs.«138790_j55319178772936_2_alg».proof.Proof.LoraSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Lora.Body

open Cert.KernelIdeal Cert.KernelIdeal.Gen Idealize.ShloMosaic Idealize.ShloMosaic.ValueIdx

/-! ## The three products: rows against rows -/

/-- In the product of the input block with W, the left operand's row coordinate is the output's row. -/
theorem w_l0 (j : S1024x2048.Idx) (q : dot_S1024x2048_S2048x2048_S1024x2048_1_1_0_0_n_n.contr.Idx) :
    (dot_S1024x2048_S2048x2048_S1024x2048_1_1_0_0_n_n.lhsIdx j q 0).val = (j 0).val := by
  unfold DotDims.lhsIdx
  rw [dif_neg (show ¬(0 : Fin S1024x2048.rank) ∈ dot_S1024x2048_S2048x2048_S1024x2048_1_1_0_0_n_n.lhsBatch by decide), dif_pos (show (0 : Fin S1024x2048.rank) ∈ dot_S1024x2048_S2048x2048_S1024x2048_1_1_0_0_n_n.lhsNonContracting by decide)]
  rfl
/-- … and the right operand's row coordinate is the output's column. -/
theorem w_r0 (j : S1024x2048.Idx) (q : dot_S1024x2048_S2048x2048_S1024x2048_1_1_0_0_n_n.contr.Idx) :
    (dot_S1024x2048_S2048x2048_S1024x2048_1_1_0_0_n_n.rhsIdx j q 0).val = (j 1).val := by
  unfold DotDims.rhsIdx
  rw [dif_neg (show ¬(0 : Fin S2048x2048.rank) ∈ dot_S1024x2048_S2048x2048_S1024x2048_1_1_0_0_n_n.rhsBatch by decide), dif_pos (show (0 : Fin S2048x2048.rank) ∈ dot_S1024x2048_S2048x2048_S1024x2048_1_1_0_0_n_n.rhsNonContracting by decide)]
  rfl

/-- The input block against W: entry (s, o) is row s of the block against row o of W. -/
theorem mm_w (l : FVec Ideal S1024x2048 .bf16) (r : FVec Ideal S2048x2048 .bf16) (s : Fin 1024) (o : Fin 2048) :
    matmul dot_S1024x2048_S2048x2048_S1024x2048_1_1_0_0_n_n none l r (constant S1024x2048 .f32 0x00000000#32) (ix2 s o)
      = ∑ k : Fin 2048, l (ix2 s k) * r (ix2 o k) :=
  Cert.Lib.Contract.matmul_zero_single dot_S1024x2048_S2048x2048_S1024x2048_1_1_0_0_n_n none 2048 rfl rfl l r (ix2 s o)
    (fun k => ix2 s k) (fun k => ix2 o k)
    (fun k q hq => funext fun a => Fin.ext (by
      match a with
      | ⟨0, _⟩ => exact w_l0 _ _
      | ⟨1, _⟩ => exact (dot_S1024x2048_S2048x2048_S1024x2048_1_1_0_0_n_n.lhsIdx_val_of_single rfl _ q).trans hq))
    (fun k q hq => funext fun a => Fin.ext (by
      match a with
      | ⟨0, _⟩ => exact w_r0 _ _
      | ⟨1, _⟩ => exact (dot_S1024x2048_S2048x2048_S1024x2048_1_1_0_0_n_n.rhsIdx_val_of_single rfl _ q).trans hq))

theorem a_l0 (j : S1024x16.Idx) (q : dot_S1024x2048_S16x2048_S1024x16_1_1_0_0_n_n.contr.Idx) :
    (dot_S1024x2048_S16x2048_S1024x16_1_1_0_0_n_n.lhsIdx j q 0).val = (j 0).val := by
  unfold DotDims.lhsIdx
  rw [dif_neg (show ¬(0 : Fin S1024x2048.rank) ∈ dot_S1024x2048_S16x2048_S1024x16_1_1_0_0_n_n.lhsBatch by decide), dif_pos (show (0 : Fin S1024x2048.rank) ∈ dot_S1024x2048_S16x2048_S1024x16_1_1_0_0_n_n.lhsNonContracting by decide)]
  rfl
theorem a_r0 (j : S1024x16.Idx) (q : dot_S1024x2048_S16x2048_S1024x16_1_1_0_0_n_n.contr.Idx) :
    (dot_S1024x2048_S16x2048_S1024x16_1_1_0_0_n_n.rhsIdx j q 0).val = (j 1).val := by
  unfold DotDims.rhsIdx
  rw [dif_neg (show ¬(0 : Fin S16x2048.rank) ∈ dot_S1024x2048_S16x2048_S1024x16_1_1_0_0_n_n.rhsBatch by decide), dif_pos (show (0 : Fin S16x2048.rank) ∈ dot_S1024x2048_S16x2048_S1024x16_1_1_0_0_n_n.rhsNonContracting by decide)]
  rfl

/-- The input block against A: entry (s, r) is row s of the block against row r of A. -/
theorem mm_a (l : FVec Ideal S1024x2048 .bf16) (r : FVec Ideal S16x2048 .bf16) (s : Fin 1024) (ρ : Fin 16) :
    matmul dot_S1024x2048_S16x2048_S1024x16_1_1_0_0_n_n none l r (constant S1024x16 .f32 0x00000000#32) (ix2 s ρ)
      = ∑ k : Fin 2048, l (ix2 s k) * r (ix2 ρ k) :=
  Cert.Lib.Contract.matmul_zero_single dot_S1024x2048_S16x2048_S1024x16_1_1_0_0_n_n none 2048 rfl rfl l r (ix2 s ρ)
    (fun k => ix2 s k) (fun k => ix2 ρ k)
    (fun k q hq => funext fun a => Fin.ext (by
      match a with
      | ⟨0, _⟩ => exact a_l0 _ _
      | ⟨1, _⟩ => exact (dot_S1024x2048_S16x2048_S1024x16_1_1_0_0_n_n.lhsIdx_val_of_single rfl _ q).trans hq))
    (fun k q hq => funext fun a => Fin.ext (by
      match a with
      | ⟨0, _⟩ => exact a_r0 _ _
      | ⟨1, _⟩ => exact (dot_S1024x2048_S16x2048_S1024x16_1_1_0_0_n_n.rhsIdx_val_of_single rfl _ q).trans hq))

theorem b_l0 (j : S1024x2048.Idx) (q : dot_S1024x16_S2048x16_S1024x2048_1_1_0_0_n_n.contr.Idx) :
    (dot_S1024x16_S2048x16_S1024x2048_1_1_0_0_n_n.lhsIdx j q 0).val = (j 0).val := by
  unfold DotDims.lhsIdx
  rw [dif_neg (show ¬(0 : Fin S1024x16.rank) ∈ dot_S1024x16_S2048x16_S1024x2048_1_1_0_0_n_n.lhsBatch by decide), dif_pos (show (0 : Fin S1024x16.rank) ∈ dot_S1024x16_S2048x16_S1024x2048_1_1_0_0_n_n.lhsNonContracting by decide)]
  rfl
theorem b_r0 (j : S1024x2048.Idx) (q : dot_S1024x16_S2048x16_S1024x2048_1_1_0_0_n_n.contr.Idx) :
    (dot_S1024x16_S2048x16_S1024x2048_1_1_0_0_n_n.rhsIdx j q 0).val = (j 1).val := by
  unfold DotDims.rhsIdx
  rw [dif_neg (show ¬(0 : Fin S2048x16.rank) ∈ dot_S1024x16_S2048x16_S1024x2048_1_1_0_0_n_n.rhsBatch by decide), dif_pos (show (0 : Fin S2048x16.rank) ∈ dot_S1024x16_S2048x16_S1024x2048_1_1_0_0_n_n.rhsNonContracting by decide)]
  rfl

/-- The thin intermediate against Bm: entry (s, o) is row s of the intermediate against row o of Bm. -/
theorem mm_b (l : FVec Ideal S1024x16 .bf16) (r : FVec Ideal S2048x16 .bf16) (s : Fin 1024) (o : Fin 2048) :
    matmul dot_S1024x16_S2048x16_S1024x2048_1_1_0_0_n_n none l r (constant S1024x2048 .f32 0x00000000#32) (ix2 s o)
      = ∑ ρ : Fin 16, l (ix2 s ρ) * r (ix2 o ρ) :=
  Cert.Lib.Contract.matmul_zero_single dot_S1024x16_S2048x16_S1024x2048_1_1_0_0_n_n none 16 rfl rfl l r (ix2 s o)
    (fun k => ix2 s k) (fun k => ix2 o k)
    (fun k q hq => funext fun a => Fin.ext (by
      match a with
      | ⟨0, _⟩ => exact b_l0 _ _
      | ⟨1, _⟩ => exact (dot_S1024x16_S2048x16_S1024x2048_1_1_0_0_n_n.lhsIdx_val_of_single rfl _ q).trans hq))
    (fun k q hq => funext fun a => Fin.ext (by
      match a with
      | ⟨0, _⟩ => exact b_r0 _ _
      | ⟨1, _⟩ => exact (dot_S1024x16_S2048x16_S1024x2048_1_1_0_0_n_n.rhsIdx_val_of_single rfl _ q).trans hq))

/-! ## The stored block at an entry -/

/-- Entry (u, s, o) of the block the body stores, from the five blocks it loads. -/
theorem pay_at (v0 : Vec Ideal S1x1024x2048 .f32) (v3 : Vec Ideal S2048x2048 .bf16) (v6 : Vec Ideal S16x2048 .bf16)
    (v10 : Vec Ideal S2048x16 .bf16) (v16 : Vec Ideal S1x2048 .f32) (u : Fin 1) (s : Fin 1024) (o : Fin 2048) :
    k0_pay1 (F := Ideal) v0 v3 v6 v10 v16 (ix3 u s o)
      = ((∑ k : Fin 2048, v0 (ix3 (0 : Fin 1) s k) * v3 (ix2 o k))
          + Cert.Lora.two * ∑ ρ : Fin 16, (∑ k : Fin 2048, v0 (ix3 (0 : Fin 1) s k) * v6 (ix2 ρ k)) * v10 (ix2 o ρ))
        + v16 (ix2 (0 : Fin 1) o) := by
  unfold k0_pay1
  rw [shapeCast_ab_1ab_apply, addf_apply, addf_apply, mulf_apply, broadcast_apply, broadcastTo_1b_ab_apply, mm_w, mm_b]
  simp only [truncf_apply, mm_a, shapeCast_self, shapeCast_1ab_ab_apply]
  rfl

end Cert.Lora.Body

end
-- ==== Proof.KernelArray.lean ====
/-
  From the blocks the grid points write to the whole output array.

  The grid is 8 × 2: point (p, h) takes rows 1024·h … 1024·h + 1023 of matrix p of x as its input block, sees W, A, Bm
  and the bias row whole (their blocks never move), and writes the same rows of matrix p of the output. Before the
  region the host only re-types W, A and Bm (the identity at the ideal values) and re-shapes the bias [2048] as a row
  [1, 2048]. So entry (u, s, o) of the block written at a point is entry (p, 1024·h + s, o) of `lora` of the argument
  arrays; the 16 blocks tile the output, hence the output array after the run is `lora` of the arguments.
-/
import proofs.«138790_j55319178772936_2_alg».proof.Proof.Gen.KernelIdeal.Value
import proofs.«138790_j55319178772936_2_alg».proof.Proof.KernelRow
import proofs.«138790_j55319178772936_2_alg».proof.Proof.LoraSpec
import Idealize.ShloMosaic.Lib.StableHlo.Run
import Idealize.ShloMosaic.Lib.ValueIdx
import Idealize.ShloMosaic.Lib.ValueLayout
import Idealize.ShloMosaic.Lib.Pipeline.Value

noncomputable section

open scoped BigOperators

namespace Cert.Lora.Blocks

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## What the region finds in the arrays the host wrote -/

/-- The re-typed W is W. -/
theorem found_w (c : Dev nD) : (V m c main_v0 : S2048x2048.Idx → EReal) = m ((c : Thread nD τ).loc main_arg1) := by
  dsimp only [Gen.V, Gen.hostOps0]; after_results; rfl
/-- The re-typed A is A. -/
theorem found_a (c : Dev nD) : (V m c main_v1 : S16x2048.Idx → EReal) = m ((c : Thread nD τ).loc main_arg4) := by
  dsimp only [Gen.V, Gen.hostOps0]; after_results; rfl
/-- The re-typed Bm is Bm. -/
theorem found_b (c : Dev nD) : (V m c main_v2 : S2048x16.Idx → EReal) = m ((c : Thread nD τ).loc main_arg3) := by
  dsimp only [Gen.V, Gen.hostOps0]; after_results; rfl
/-- The bias as a row. -/
theorem found_bias (c : Dev nD) : (V m c main_v3 : S1x2048.Idx → EReal)
    = shapeCast S1x2048 (m ((c : Thread nD τ).loc main_arg2)) shapeCasts_S2048_S1x2048 := by
  dsimp only [Gen.V, Gen.hostOps0]; after_results; rfl

/-! ## The index maps over the grid -/

theorem origin3 : (![0, 0, 0] : Fin 3 → Nat) = fun _ => 0 := funext fun a => by fin_cases a <;> rfl
theorem origin2 : (![0, 0] : Fin 2 → Nat) = fun _ => 0 := funext fun a => by fin_cases a <;> rfl

/-- The input block of x moves with the output block; the blocks of W, A, Bm and the bias never move; the output's block
    index is (p, h, 0) with p < 8, h < 2. Decided over the 16 points. -/
theorem block_indices : ∀ t : Fin cfg0.N,
    win0_0.index t (0 : Fin 3) = win0_5.index t (0 : Fin 3) ∧ win0_0.index t (1 : Fin 3) = win0_5.index t (1 : Fin 3)
    ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) ≤ 7 ∧ win0_5.index t (1 : Fin 3) ≤ 1 ∧ win0_5.index t (2 : Fin 3) = 0 :=
  (by decide +kernel : ∀ t : Fin grid0.N, _)

/-- Every pair (matrix p, half h) is some point's output block. -/
theorem block_onto : ∀ (p : Fin 8) (h : Fin 2), ∃ t : Fin cfg0.N, win0_5.index t = ![p.val, h.val, 0] :=
  (by decide +kernel : ∀ (p : Fin 8) (h : Fin 2), ∃ t : Fin grid0.N, win0_5.index t = ![p.val, h.val, 0])

/-! ## The input blocks, read where the output block sits -/

/-- Row s of the x block at point t is row S of matrix P of x, (P, S) the array position of row s of the output block. -/
theorem read_x (c : Dev nD) (t : Fin cfg0.N) (s : Fin 1024) (k : Fin 2048) (P : Fin 8) (S : Fin 2048)
    (hP : P.val = win0_5.index t (0 : Fin 3)) (hS : S.val = win0_5.index t (1 : Fin 3) * 1024 + s.val) :
    iblk m c 0 t (ix3 (0 : Fin 1) s k) = m ((c : Thread nD τ).loc main_arg0) (ix3 P S k) := by
  obtain ⟨e0, e1, e2, -⟩ := block_indices t
  show V m c main_arg0 (((cfg0.win 0).blk t).view.emb (ix3 (0 : Fin 1) s k)) = _
  rw [V_main_arg0]
  refine congrArg _ (funext fun a => Fin.ext ?_)
  match a with
  | ⟨0, _⟩ => show win0_0.index t (0 : Fin 3) * 1 + 1 * 0 = P.val; omega
  | ⟨1, _⟩ => show win0_0.index t (1 : Fin 3) * 1024 + 1 * s.val = S.val; omega
  | ⟨2, _⟩ => show win0_0.index t (2 : Fin 3) * 2048 + 1 * k.val = k.val; omega

/-- The W block is W. -/
theorem read_w (c : Dev nD) (t : Fin cfg0.N) (o k : Fin 2048) :
    iblk m c 1 t (ix2 o k) = m ((c : Thread nD τ).loc main_arg1) (ix2 o k) := by
  obtain ⟨-, -, -, e0, e1, -⟩ := block_indices t
  show V m c main_v0 (((cfg0.win 1).blk t).view.emb (ix2 o k)) = _
  refine (congrFun (found_w m c) _).trans (congrArg _ (funext fun a => Fin.ext ?_))
  match a with
  | ⟨0, _⟩ => show win0_1.index t (0 : Fin 2) * 2048 + 1 * o.val = o.val; omega
  | ⟨1, _⟩ => show win0_1.index t (1 : Fin 2) * 2048 + 1 * k.val = k.val; omega

/-- The A block is A. -/
theorem read_a (c : Dev nD) (t : Fin cfg0.N) (r : Fin 16) (k : Fin 2048) :
    iblk m c 2 t (ix2 r k) = m ((c : Thread nD τ).loc main_arg4) (ix2 r k) := by
  obtain ⟨-, -, -, -, -, e0, e1, -⟩ := block_indices t
  show V m c main_v1 (((cfg0.win 2).blk t).view.emb (ix2 r k)) = _
  refine (congrFun (found_a m c) _).trans (congrArg _ (funext fun a => Fin.ext ?_))
  match a with
  | ⟨0, _⟩ => show win0_2.index t (0 : Fin 2) * 16 + 1 * r.val = r.val; omega
  | ⟨1, _⟩ => show win0_2.index t (1 : Fin 2) * 2048 + 1 * k.val = k.val; omega

/-- The Bm block is Bm. -/
theorem read_b (c : Dev nD) (t : Fin cfg0.N) (o : Fin 2048) (r : Fin 16) :
    iblk m c 3 t (ix2 o r) = m ((c : Thread nD τ).loc main_arg3) (ix2 o r) := by
  obtain ⟨-, -, -, -, -, -, -, e0, e1, -⟩ := block_indices t
  show V m c main_v2 (((cfg0.win 3).blk t).view.emb (ix2 o r)) = _
  refine (congrFun (found_b m c) _).trans (congrArg _ (funext fun a => Fin.ext ?_))
  match a with
  | ⟨0, _⟩ => show win0_3.index t (0 : Fin 2) * 2048 + 1 * o.val = o.val; omega
  | ⟨1, _⟩ => show win0_3.index t (1 : Fin 2) * 16 + 1 * r.val = r.val; omega

/-- The bias row at column o is the bias of feature o. -/
theorem read_bias (c : Dev nD) (t : Fin cfg0.N) (o : Fin 2048) :
    iblk m c 4 t (ix2 (0 : Fin 1) o) = m ((c : Thread nD τ).loc main_arg2) (ix1 o) := by
  obtain ⟨-, -, -, -, -, -, -, -, -, e0, e1, -⟩ := block_indices t
  show V m c main_v3 (((cfg0.win 4).blk t).view.emb (ix2 (0 : Fin 1) o)) = _
  have he : ((cfg0.win 4).blk t).view.emb (ix2 (0 : Fin 1) o) = ix2 (0 : Fin 1) o := funext fun a => Fin.ext (by
    match a with
    | ⟨0, _⟩ => show win0_4.index t (0 : Fin 2) * 1 + 1 * 0 = 0; omega
    | ⟨1, _⟩ => show win0_4.index t (1 : Fin 2) * 2048 + 1 * o.val = o.val; omega)
  rw [he]
  exact (congrFun (found_bias m c) _).trans (shapeCast_a_1a_apply _ _ 0 o)

/-! ## One entry of a block, over variables -/

/-- If the five loaded blocks read as the arrays do at the rows named, the stored entry (u, s, o) is entry (P, S, o) of
    `lora`. -/
theorem block_entry (x : (⟨3, ![8, 2048, 2048]⟩ : Shape).Idx → EReal) (W : (⟨2, ![2048, 2048]⟩ : Shape).Idx → EReal)
    (b : (⟨1, ![2048]⟩ : Shape).Idx → EReal) (Bm : (⟨2, ![2048, 16]⟩ : Shape).Idx → EReal)
    (A : (⟨2, ![16, 2048]⟩ : Shape).Idx → EReal)
    (v0 : Vec Ideal S1x1024x2048 .f32) (v3 : Vec Ideal S2048x2048 .bf16) (v6 : Vec Ideal S16x2048 .bf16)
    (v10 : Vec Ideal S2048x16 .bf16) (v16 : Vec Ideal S1x2048 .f32)
    (u : Fin 1) (s : Fin 1024) (o : Fin 2048) (P : Fin 8) (S : Fin 2048)
    (r0 : ∀ k : Fin 2048, v0 (ix3 (0 : Fin 1) s k) = x (ix3 P S k))
    (r1 : ∀ k : Fin 2048, v3 (ix2 o k) = W (ix2 o k))
    (r2 : ∀ (r : Fin 16) (k : Fin 2048), v6 (ix2 r k) = A (ix2 r k))
    (r3 : ∀ r : Fin 16, v10 (ix2 o r) = Bm (ix2 o r))
    (r4 : v16 (ix2 (0 : Fin 1) o) = b (ix1 o)) :
    k0_pay1 (F := Ideal) v0 v3 v6 v10 v16 (ix3 u s o) = Cert.Lora.entry x W b Bm A P S o := by
  rw [Cert.Lora.Body.pay_at]
  simp only [r0, r1, r2, r3, r4]
  rfl

/-! ## What a point writes back, the cover, the array -/

/-- What point t writes back is its block of `lora` of the argument arrays. -/
theorem flushed_eq (c : Dev nD) (t : Fin cfg0.N) :
    (dats m 0 c).flushed 5 t = ((cfg0.win 5).blk t).view.read (Elt Ideal)
      (Cert.Lora.lora (m ((c : Thread nD τ).loc main_arg0)) (m ((c : Thread nD τ).loc main_arg1))
        (m ((c : Thread nD τ).loc main_arg2)) (m ((c : Thread nD τ).loc main_arg3)) (m ((c : Thread nD τ).loc main_arg4))) := by
  rw [Cert.KernelIdeal.Value.flushed5]
  unfold out0_5
  rw [View.canon_unit_zero origin3]
  simp only [View.ld_unit_zero (S := S1x1024x2048) origin3, View.ld_unit_zero (S := S2048x2048) origin2,
    View.ld_unit_zero (S := S16x2048) origin2, View.ld_unit_zero (S := S2048x16) origin2,
    View.ld_unit_zero (S := S1x2048) origin2]
  funext j
  obtain ⟨u, s, o, rfl⟩ : ∃ (u : Fin 1) (s : Fin 1024) (o : Fin 2048), j = ix3 u s o := ⟨j 0, j 1, j 2, eq_ix3 j⟩
  obtain ⟨-, -, -, -, -, -, -, -, -, -, -, b0, b1, b2⟩ := block_indices t
  have hu : u.val = 0 := by omega
  -- where entry (u, s, o) of the block sits in the array
  have hi : ((cfg0.win 5).blk t).view.emb (ix3 u s o)
      = ix3 (⟨win0_5.index t (0 : Fin 3), by omega⟩ : Fin 8) (⟨win0_5.index t (1 : Fin 3) * 1024 + s.val, by omega⟩ : Fin 2048) o :=
    funext fun a => Fin.ext (by
      match a with
      | ⟨0, _⟩ => show win0_5.index t (0 : Fin 3) * 1 + 1 * u.val = win0_5.index t (0 : Fin 3); omega
      | ⟨1, _⟩ => show win0_5.index t (1 : Fin 3) * 1024 + 1 * s.val = win0_5.index t (1 : Fin 3) * 1024 + s.val; omega
      | ⟨2, _⟩ => show win0_5.index t (2 : Fin 3) * 2048 + 1 * o.val = o.val; omega)
  show k0_pay1 (F := Ideal) (iblk m c 0 t) (iblk m c 1 t) (iblk m c 2 t) (iblk m c 3 t) (iblk m c 4 t) (ix3 u s o)
    = Cert.Lora.lora _ _ _ _ _ (((cfg0.win 5).blk t).view.emb (ix3 u s o))
  rw [hi]
  exact block_entry _ _ _ _ _ (iblk m c 0 t) (iblk m c 1 t) (iblk m c 2 t) (iblk m c 3 t) (iblk m c 4 t) u s o _ _
    (fun k => read_x m c t s k _ _ rfl rfl) (fun k => read_w m c t o k) (fun r k => read_a m c t r k)
    (fun r => read_b m c t o r) (read_bias m c t o)

/-- An index of the output array is in point t's block iff each coordinate is in the block's range on its axis. -/
theorem mem_block (t : Fin cfg0.N) (i : S8x2048x2048.Idx) :
    i ∈ ((cfg0.win 5).blk t).view.set ↔ ∀ a : Fin 3, win0_5.index t a * S1x1024x2048.size a ≤ (i a).val
      ∧ (i a).val < win0_5.index t a * S1x1024x2048.size a + S1x1024x2048.size a := by
  show i ∈ ((View.whole main_v4).slice (win0_5.rect t)).set ↔ _
  rw [View.set_slice_whole, Rect.mem_set_unit]
  exact Iff.rfl

/-- The 16 blocks cover the output: row S of matrix p is in the block of point (p, S / 1024). -/
theorem cover (i : S8x2048x2048.Idx) :
    ∃ t : Fin cfg0.N, (cfg0.win 5).flush t = true ∧ i ∈ ((cfg0.win 5).blk t).view.set := by
  have hi0 : (i 0).val < 8 := (i 0).isLt
  have hi1 : (i 1).val < 2048 := (i 1).isLt
  have hi2 : (i 2).val < 2048 := (i 2).isLt
  obtain ⟨t, ht⟩ := block_onto ⟨(i 0).val, hi0⟩ ⟨(i 1).val / 1024, by omega⟩
  have q0 : win0_5.index t (0 : Fin 3) = (i 0).val := congrFun ht 0
  have q1 : win0_5.index t (1 : Fin 3) = (i 1).val / 1024 := congrFun ht 1
  have q2 : win0_5.index t (2 : Fin 3) = 0 := congrFun ht 2
  refine ⟨t, flush0_5 t, ?_⟩
  rw [mem_block]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1024 ≤ (i 1).val ∧ (i 1).val < win0_5.index t (1 : Fin 3) * 1024 + 1024; omega
  | ⟨2, _⟩ => show win0_5.index t (2 : Fin 3) * 2048 ≤ (i 2).val ∧ (i 2).val < win0_5.index t (2 : Fin 3) * 2048 + 2048; omega

/-- The output array after the run is `lora` of the argument arrays. -/
theorem final (c : Dev nD) : (dats m 0 c).arrAt 5 cfg0.N
    = Cert.Lora.lora (m ((c : Thread nD τ).loc main_arg0)) (m ((c : Thread nD τ).loc main_arg1))
        (m ((c : Thread nD τ).loc main_arg2)) (m ((c : Thread nD τ).loc main_arg3)) (m ((c : Thread nD τ).loc main_arg4)) :=
  (dats m 0 c).arrAt_eq_of_cover 5 _ (fun t _ => flushed_eq m c t) cover

/-- The kernel's run: the result array ends at `lora` of the arguments, the arguments unchanged. -/
theorem run : θ_run defs (onTc (τ := τ) (main (F := Ideal))) ⟨m, fun _ => 0, ρ⟩ fun r => ∀ c : Dev nD,
      r.2.mem ((c : Thread nD τ).loc main_v4)
        = Cert.Lora.lora (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.Lora.Blocks

end
-- ==== Proof.LibLowRank.lean ====
/-
  The one algebraic law behind a low-rank update of a linear map, free of any program.

  A row x of the input meets row o of the UPDATED weight  w + t·(b·A)  — entry  w(k) + t·Σ_r b(r)·A(r,k)  — and the
  claim is that this equals the row against the plain weight plus t times the row pushed first through A and then
  through b:
      Σ_k x(k)·(w(k) + t·Σ_r b(r)·A(r,k))  =  Σ_k x(k)·w(k)  +  t·Σ_r (Σ_k x(k)·A(r,k))·b(r).
  In ℝ this is the distributive law and an exchange of the two sums. On the extended reals a product does not
  distribute over a sum that mixes +∞ and −∞, so the law is stated for entries that are real numbers: both sides are
  then the image of one real number.
-/
import Idealize.ShloMosaic.PureOps.Ideal.Laws

noncomputable section

open scoped BigOperators

namespace Cert.Lora

open Idealize.ShloMosaic

/-- The inclusion of ℝ in the extended reals commutes with a finite sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The law in ℝ: distribute x(k) over the updated weight entry, then exchange the sums over k and r. -/
theorem merged_real {κ ρ : Type} [Fintype κ] [Fintype ρ] (x w : κ → ℝ) (a : ρ → κ → ℝ) (b : ρ → ℝ) (t : ℝ) :
    ∑ k, x k * (w k + t * ∑ r, b r * a r k) = ∑ k, x k * w k + t * ∑ r, (∑ k, x k * a r k) * b r := by
  simp only [mul_add, Finset.sum_add_distrib, Finset.mul_sum, Finset.sum_mul]
  congr 1
  rw [Finset.sum_comm]
  exact Finset.sum_congr rfl fun r _ => Finset.sum_congr rfl fun k _ => by ring

/-- The law on the extended reals, for entries and a factor t that are real numbers. -/
theorem merged {κ ρ : Type} [Fintype κ] [Fintype ρ] (x w : κ → EReal) (a : ρ → κ → EReal) (b : ρ → EReal) (t : EReal)
    (hx : ∀ k, ∃ r : ℝ, x k = (r : EReal)) (hw : ∀ k, ∃ r : ℝ, w k = (r : EReal))
    (ha : ∀ r k, ∃ v : ℝ, a r k = (v : EReal)) (hb : ∀ r, ∃ v : ℝ, b r = (v : EReal)) (ht : ∃ v : ℝ, t = (v : EReal)) :
    ∑ k, x k * (w k + t * ∑ r, b r * a r k) = ∑ k, x k * w k + t * ∑ r, (∑ k, x k * a r k) * b r := by
  choose x' hx' using hx
  choose w' hw' using hw
  choose a' ha' using ha
  choose b' hb' using hb
  obtain ⟨t', rfl⟩ := ht
  simp only [hx', hw', ha', hb', ← EReal.coe_mul, ← coe_sum, ← EReal.coe_add]
  exact congrArg _ (merged_real x' w' a' b' t')

/-- The word 0x40000000 denotes the real number 2. -/
theorem two_word : ∃ v : ℝ, Ideal.ofBits .f32 0x40000000#32 = (v : EReal) := by
  refine ⟨2, ?_⟩
  simp [Ideal.ofBits, Ideal.ieee]
  rw [← EReal.coe_mul]
  norm_num

end Cert.Lora

end
-- ==== Proof.RefRow.lean ====
/-
  The reference, read at one entry, is the same function as the kernel's — for real entries.

  The reference first forms the updated weight  W + 2·(Bm·A)  (entry (o, k):  W(o,k) + 2·Σ_r Bm(o,r)·A(r,k)), then
  takes every row of x against every row of it and adds the bias. Read at entry (p, s, o) this is
      Σ_k x(p,s,k)·(W(o,k) + 2·Σ_r Bm(o,r)·A(r,k))  +  b(o),
  and the low-rank law (distribute, exchange the two sums) turns the first summand into
      Σ_k x(p,s,k)·W(o,k)  +  2·Σ_r (Σ_k x(p,s,k)·A(r,k))·Bm(o,r).
  The law needs the entries of x, W, Bm and A to be real numbers; the bias is only added at the end and may be anything.
-/
import proofs.«138790_j55319178772936_2_alg».proof.Proof.Gen.ReferenceIdeal.Read
import proofs.«138790_j55319178772936_2_alg».proof.Proof.LoraSpec
import proofs.«138790_j55319178772936_2_alg».proof.Proof.LibLowRank
import Idealize.ShloMosaic.Lib.ValueIdx

noncomputable section

open scoped BigOperators

namespace Cert.Lora.Ref

open Cert.ReferenceIdeal Cert.ReferenceIdeal.Read Idealize.ShloMosaic Idealize.ShloMosaic.ValueIdx

/-- The reference's result array is `lora` of its arguments, when x, W, Bm and A hold real numbers. -/
theorem ref_eq (x0 : (⟨S8x2048x2048, .f32⟩ : BufTy).Contents (Elt Ideal)) (x1 : (⟨S2048x2048, .f32⟩ : BufTy).Contents (Elt Ideal))
    (x2 : (⟨S2048, .f32⟩ : BufTy).Contents (Elt Ideal)) (x3 : (⟨S2048x16, .f32⟩ : BufTy).Contents (Elt Ideal))
    (x4 : (⟨S16x2048, .f32⟩ : BufTy).Contents (Elt Ideal))
    (h0 : ∀ i, ∃ r : ℝ, x0 i = (r : EReal)) (h1 : ∀ i, ∃ r : ℝ, x1 i = (r : EReal))
    (h3 : ∀ i, ∃ r : ℝ, x3 i = (r : EReal)) (h4 : ∀ i, ∃ r : ℝ, x4 i = (r : EReal)) :
    val_main_v7 (F := Ideal) x0 x1 x2 x3 x4 = Cert.Lora.lora x0 x1 x2 x3 x4 := by
  funext i
  obtain ⟨p, s, o, rfl⟩ : ∃ (p : Fin 8) (s : Fin 2048) (o : Fin 2048), i = ix3 p s o := ⟨i 0, i 1, i 2, eq_ix3 i⟩
  -- the generated index maps, in coordinates
  have e1 : ∀ k : Fin 2048, lidx_main_v4 (ix3 p s o) k = ix3 p s k := fun k => funext fun a => Fin.ext (by
    match a with | ⟨0, _⟩ => rfl | ⟨1, _⟩ => rfl | ⟨2, _⟩ => rfl)
  have e2 : ∀ k : Fin 2048, ridx_main_v4 (ix3 p s o) k = ix2 o k := fun k => funext fun a => Fin.ext (by
    match a with | ⟨0, _⟩ => rfl | ⟨1, _⟩ => rfl)
  have e3 : ∀ (k : Fin 2048) (r : Fin 16), lidx_main_v0 (ix2 o k) r = ix2 o r := fun k r => funext fun a => Fin.ext (by
    match a with | ⟨0, _⟩ => rfl | ⟨1, _⟩ => rfl)
  have e4 : ∀ (k : Fin 2048) (r : Fin 16), ridx_main_v0 (ix2 o k) r = ix2 r k := fun k r => funext fun a => Fin.ext (by
    match a with | ⟨0, _⟩ => rfl | ⟨1, _⟩ => rfl)
  have e5 : idx_main_v5 (idx_main_v6 (ix3 p s o)) = ix1 o := funext fun a => Fin.ext (by
    match a with | ⟨0, _⟩ => rfl)
  rw [val_main_v7_apply, val_main_v4_apply, val_main_v6_apply, val_main_v5_apply]
  simp only [e1, e2, e5, val_main_v3_apply, val_main_v2_apply, val_main_v1_apply, val_main_cst_apply, val_main_v0_apply, e3, e4,
    Ideal.addf_def, Ideal.mulf_def, Ideal.ofBits_def]
  -- the low-rank law on row (p, s) of x and rows o of W and Bm
  have law := Cert.Lora.merged (fun k : Fin 2048 => x0 (ix3 p s k)) (fun k : Fin 2048 => x1 (ix2 o k))
    (fun (r : Fin 16) (k : Fin 2048) => x4 (ix2 r k)) (fun r : Fin 16 => x3 (ix2 o r)) Cert.Lora.two
    (fun _ => h0 _) (fun _ => h1 _) (fun _ _ => h4 _) (fun _ => h3 _) Cert.Lora.two_word
  exact congrArg (· + x2 (ix1 o)) law

end Cert.Lora.Ref

end
-- ==== Proof.LibFinite.lean ====
/-
  A finiteness test read back. The predicate  all(|x| < +inf)  of a float array x prints as a reduction by "and", from the
  constant 1, of the entrywise comparison of |x| with the broadcast scalar whose word is the +inf pattern. On the extended
  reals |x| is max(x, -x) and that word is ⊤; so if the reduction, taken over all axes, is 1, every entry of x is a real
  number: an entry ⊤ or ⊥ would have |x| = ⊤, which is not below ⊤. Generic in the shape.
-/
import Idealize.ShloMosaic.PureOps.Ideal
import Idealize.ShloMosaic.PureOps.Ideal.Laws
import Idealize.ShloMosaic.Lib.ReduceAll
import Idealize.ShloMosaic.Lib.ValueIdx
import Idealize.ShloMosaic.Lib.Pipeline.Value

noncomputable section

namespace Cert.LibFinite

open Idealize.ShloMosaic Idealize.ShloMosaic.ValueIdx

instance : Subsingleton (⟨0, ![]⟩ : Shape).Idx := ⟨fun a b => funext fun d => d.elim0⟩

/-- The +inf pattern denotes ⊤. -/
theorem inf_word : Ideal.ofBits .f32 0x7F800000#32 = (⊤ : EReal) := by
  simp [Ideal.ofBits, Ideal.ieee]

/-- An extended real whose absolute value is below ⊤ is a real number. -/
theorem real_of_abs_lt_top (v : EReal) (h : max v (-v) < ⊤) : ∃ r : ℝ, v = (r : EReal) := by
  induction v using EReal.rec with
  | bot => exact absurd h (by simp)
  | coe r => exact ⟨r, rfl⟩
  | top => exact absurd h (by simp)

/-- all(|x| < +inf) = 1 gives: every entry of x is real. -/
theorem real_of_all {S : Shape} {axes : List (Fin S.rank)} (x : FVec Ideal S .f32)
    (bc : (⟨0, ![]⟩ : Shape).BroadcastsInDim S ![]) (h : S.ReducesTo axes ⟨0, ![]⟩) (hu : 0 < (⟨0, ![]⟩ : Shape).numel)
    (j : (⟨0, ![]⟩ : Shape).Idx)
    (e : Host.reduce IntOp.andi
        (cmpf .olt (Host.absf x) (broadcastInDim S ![] bc (constant ⟨0, ![]⟩ .f32 0x7F800000#32)))
        (constantI ⟨0, ![]⟩ 1 1#1) h hu j = 1#1) :
    ∀ i, ∃ r : ℝ, x i = (r : EReal) := fun i => by
  have hi := Host.reduce_andi_all _ _ h hu j e i
  have hb : broadcastInDim S ![] bc (constant (F := Ideal) ⟨0, ![]⟩ .f32 0x7F800000#32) i = (⊤ : EReal) := by
    rw [broadcastInDim_apply ![] bc _ i ix0 fun d => d.elim0]
    exact inf_word
  have hc : Ideal.cmp .olt (max (x i) (-(x i))) (broadcastInDim S ![] bc (constant (F := Ideal) ⟨0, ![]⟩ .f32 0x7F800000#32) i) = 1#1 := hi
  rw [hb] at hc
  refine real_of_abs_lt_top (x i) ?_
  by_contra hlt
  have : Ideal.cmp .olt (max (x i) (-(x i))) ⊤ = 0#1 := by
    show BitVec.ofBool (decide (max (x i) (-(x i)) < ⊤)) = 0#1
    rw [decide_eq_false hlt]; rfl
  rw [this] at hc
  exact absurd hc (by decide)

end Cert.LibFinite

end
-- ==== Proof.RealInputs.lean ====
/-
  The precondition, read back: the entries of the inputs are real numbers.

  The precondition is the conjunction, over the five inputs, of  all(|x| < +inf).  Read at its one index, the
  conjunction splits into its five tests, and each test says that every entry of that input is a real number (an entry
  +inf or −inf has absolute value +inf, which is not below +inf).
-/
import proofs.«138790_j55319178772936_2_alg».proof.Pre_finite_inputs
import proofs.«138790_j55319178772936_2_alg».proof.Proof.LibFinite
import Idealize.ShloMosaic.Lib.Affine
import Idealize.ShloMosaic.Lib.ValueIdx

noncomputable section

namespace Cert.Lora.Finite

open Idealize.ShloMosaic Idealize.ShloMosaic.ValueIdx Cert.Pre_finite_inputs

variable [Cert.Pre_finite_inputs.Facts]

/-- Under the precondition every entry of x, W, Bm and A is a real number. -/
theorem reals_of_pre (a0 : FVec Ideal S8x2048x2048 .f32) (a1 : FVec Ideal S2048x2048 .f32) (a2 : FVec Ideal S2048 .f32)
    (a3 : FVec Ideal S2048x16 .f32) (a4 : FVec Ideal S16x2048 .f32)
    (h : Cert.Pre_finite_inputs.fn (F := Ideal) a0 a1 a2 a3 a4 = fun _ => 1#1) :
    (∀ i, ∃ r : ℝ, a0 i = (r : EReal)) ∧ (∀ i, ∃ r : ℝ, a1 i = (r : EReal))
      ∧ (∀ i, ∃ r : ℝ, a3 i = (r : EReal)) ∧ (∀ i, ∃ r : ℝ, a4 i = (r : EReal)) := by
  have h0 := congrFun h ix0
  dsimp only [fn, fn_part1] at h0
  obtain ⟨h0123, t4⟩ := IntOp.andi_eq_one.1 h0
  obtain ⟨h012, t3⟩ := IntOp.andi_eq_one.1 h0123
  obtain ⟨h01, _⟩ := IntOp.andi_eq_one.1 h012
  obtain ⟨t0, t1⟩ := IntOp.andi_eq_one.1 h01
  exact ⟨Cert.LibFinite.real_of_all a0 _ _ _ ix0 t0, Cert.LibFinite.real_of_all a1 _ _ _ ix0 t1,
    Cert.LibFinite.real_of_all a3 _ _ _ ix0 t3, Cert.LibFinite.real_of_all a4 _ _ _ ix0 t4⟩

end Cert.Lora.Finite

end
-- ==== Proof.lean ====
/-
  A linear layer with a low-rank update, computed two ways, gives one result on the extended reals for finite inputs.

  Inputs: x, a stack of 8 matrices of 2048 rows and 2048 columns; W, the 2048×2048 weight (row o holds the weights of
  output feature o); the bias b; the thin factors Bm (2048×16) and A (16×2048) of the update.

  The reference forms the updated weight  W + 2·(Bm·A)  and applies it:
      y(p,s,o) = Σ_k x(p,s,k)·(W(o,k) + 2·Σ_r Bm(o,r)·A(r,k)) + b(o).
  The kernel never forms the updated weight. For each block of 1024 rows of one matrix it takes the rows against W, pushes
  them through A and then through Bm, scales by 2, adds, and adds the bias:
      y(p,s,o) = Σ_k x(p,s,k)·W(o,k) + 2·Σ_r (Σ_k x(p,s,k)·A(r,k))·Bm(o,r) + b(o).
  The two agree by the distributive law and an exchange of the sums over k and r. On the extended reals that law fails
  at infinities, so the proof uses the precondition: every entry of x, W, Bm and A is a real number (the bias is only
  added last and needs nothing). The changes of float format in the kernel are the identity at the ideal values, and the
  scale 2 is the same binary word in both programs.

  The pieces: LibLowRank (the law, over abstract index sets), LoraSpec (the common function `lora`), KernelRow (the kernel
  body's three products and its stored block at an entry), KernelArray (what the region finds in the host-written arrays,
  what each grid point writes, the cover, the whole output array), RefRow (the reference at an entry is `lora`),
  RealInputs (the precondition read back). The three frames are the generated ones; nothing was rewritten by the
  idealization, so there is nothing to preserve.
-/
import proofs.«138790_j55319178772936_2_alg».proof.Defs
import proofs.«138790_j55319178772936_2_alg».proof.Proof.Gen.Kernel
import proofs.«138790_j55319178772936_2_alg».proof.Proof.Gen.Kernel.Frame
import proofs.«138790_j55319178772936_2_alg».proof.Proof.Gen.KernelIdeal
import proofs.«138790_j55319178772936_2_alg».proof.Proof.Gen.KernelIdeal.Frame
import proofs.«138790_j55319178772936_2_alg».proof.Proof.Gen.KernelIdeal.Value
import proofs.«138790_j55319178772936_2_alg».proof.Proof.Gen.ReferenceIdeal
import proofs.«138790_j55319178772936_2_alg».proof.Proof.Gen.ReferenceIdeal.Run
import proofs.«138790_j55319178772936_2_alg».proof.Proof.Gen.ReferenceIdeal.Read
import proofs.«138790_j55319178772936_2_alg».proof.Proof.Gen.Pre_finite_inputs
import proofs.«138790_j55319178772936_2_alg».proof.Proof.KernelArray
import proofs.«138790_j55319178772936_2_alg».proof.Proof.RefRow
import proofs.«138790_j55319178772936_2_alg».proof.Proof.RealInputs
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_k : Cert.frame_Kernel := fun m ρ _ => Cert.Kernel.Gen.frame m ρ

/-- So does the kernel read at the ideal values. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result array at `lora` of the (agreeing) arguments: the kernel block by block, the reference
    by the low-rank law, which the finiteness of x, W, Bm and A licenses. -/
theorem algebraic : Cert.algebraic_KernelIdeal_ReferenceIdeal := by
  intro m ρ m' ρ' hpre hagree
  refine ⟨_, Cert.Lora.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨r0, r1, r3, r4⟩ := Cert.Lora.Finite.reals_of_pre _ _ _ _ _ (hpre c)
  rw [Cert.ReferenceIdeal.Read.val_main_v7_eq, (hagree c).1, (hagree c).2.1, (hagree c).2.2.1, (hagree c).2.2.2.1,
    (hagree c).2.2.2.2]
  exact Cert.Lora.Ref.ref_eq _ _ _ _ _ r0 r1 r3 r4

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
